-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_arg7 : FVec F S64x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : IVec S800000 32) (main_arg2 : IVec S800000 32) (main_arg3 : FVec F S64x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S5000x64 : Shape := ⟨2, ![5000, 64]⟩
abbrev S1x64 : Shape := ⟨2, ![1, 64]⟩

abbrev nBuf : Space → Nat
  | .hbm => 73
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .f32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S50000x64, .f32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x64, .f32⟩
  | .hbm, ⟨48, _⟩ => ⟨S_, .f32⟩
  | .hbm, ⟨49, _⟩ => ⟨S50000x64, .f32⟩
  | .hbm, ⟨50, _⟩ => ⟨S800000x1, .i32⟩
  | .hbm, ⟨51, _⟩ => ⟨S50000x64, .f32⟩
  | .hbm, ⟨52, _⟩ => ⟨S50000x64, .f32⟩
  | .hbm, ⟨53, _⟩ => ⟨S50000x64, .f32⟩
  | .hbm, ⟨54, _⟩ => ⟨S50000x64, .f32⟩
  | .hbm, ⟨55, _⟩ => ⟨S50000x64, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x64, .f32⟩
  | .hbm, ⟨65, _⟩ => ⟨S_, .f32⟩
  | .hbm, ⟨66, _⟩ => ⟨S50000x64, .f32⟩
  | .hbm, ⟨67, _⟩ => ⟨S800000x1, .i32⟩
  | .hbm, ⟨68, _⟩ => ⟨S50000x64, .f32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_c_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v21) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v35) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩

abbrev nBuf : Space → Nat
  | .hbm => 88
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .f32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S50000x64, .f32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S1x64, .f32⟩
  | .hbm, ⟨40, _⟩ => ⟨S50000x64, .f32⟩
  | .hbm, ⟨41, _⟩ => ⟨S50000x64, .f32⟩
  | .hbm, ⟨42, _⟩ => ⟨S_, .f32⟩
  | .hbm, ⟨43, _⟩ => ⟨S50000x64, .f32⟩
  | .hbm, ⟨44, _⟩ => ⟨S50000x64, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x64, .f32⟩
  | .hbm, ⟨54, _⟩ => ⟨S_, .f32⟩
  | .hbm, ⟨55, _⟩ => ⟨S50000x64, .f32⟩
  | .hbm, ⟨56, _⟩ => ⟨S800000x1, .i32⟩
  | .hbm, ⟨57, _⟩ => ⟨S50000x64, .f32⟩
  | .hbm, ⟨58, _⟩ => ⟨S50000x64, .f32⟩
  | .hbm, ⟨59, _⟩ => ⟨S50000x64, .f32⟩
  | .hbm, ⟨60, _⟩ => ⟨S50000x64, .f32⟩
  | .hbm, ⟨61, _⟩ => ⟨S50000x64, .f32⟩
  | .hbm, ⟨62, _⟩ => ⟨S1x64, .f32⟩
  | .hbm, ⟨63, _⟩ => ⟨S50000x64, .f32⟩
  | .hbm, ⟨64, _⟩ => ⟨S50000x64, .f32⟩
  | .hbm, ⟨65, _⟩ => ⟨S_, .f32⟩
  | .hbm, ⟨66, _⟩ => ⟨S50000x64, .f32⟩
  | .hbm, ⟨67, _⟩ => ⟨S50000x64, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x64, .f32⟩
  | .hbm, ⟨77, _⟩ => ⟨S_, .f32⟩
  | .hbm, ⟨78, _⟩ => ⟨S50000x64, .f32⟩
  | .hbm, ⟨79, _⟩ => ⟨S800000x1, .i32⟩
  | .hbm, ⟨80, _⟩ => ⟨S50000x64, .f32⟩
  | .hbm, ⟨81, _⟩ => ⟨S50000x64, .f32⟩
  | .hbm, ⟨82, _⟩ => ⟨S50000x64, .f32⟩
  | .hbm, ⟨83, _⟩ => ⟨S50000x64, .f32⟩
  | .hbm, ⟨84, _⟩ => ⟨S50000x64, .f32⟩
  | .hbm, ⟨85, _⟩ => ⟨S1x64, .f32⟩
  | .hbm, ⟨86, _⟩ => ⟨S50000x64, .f32⟩
  | .hbm, ⟨87, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call0_cst : Ref sig .tc := ⟨.hbm, 42, rfl⟩
abbrev main_call0_v0 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call1_cst : Ref sig .tc := ⟨.hbm, 65, rfl⟩
abbrev main_call1_v0 : Ref sig .tc := ⟨.hbm, 66, rfl⟩
abbrev main_v44 : Ref sig .tc := ⟨.hbm, 67, rfl⟩
abbrev main_c_8 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The run of the three-layer program with its result named.

  The program is six segments: a stretch of host lines, the first layer's dense step, a stretch, the second
  step, a stretch, the third step. Running them from any memory, every weakly fair execution terminates without
  a fault, the nine argument arrays end as they began, and the result array ends holding what the fold of the
  segments' effects over the starting memory leaves in it: the contents at the last boundary, read at the result.
-/
import proofs.«111350_j19353122635776_1_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array ends at the last boundary's
    contents and every argument array as launched. -/
theorem run_out : θ_run defs (onTc (τ := τ) (main (F := F))) ⟨m, fun _ => 0, ρ⟩ (fun r => ∀ c : Dev nD,
      r.2.mem ((c.tc : Thread nD τ).loc main_v50) = W6 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v50 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.RunOut

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.Spec.lean ====
/-
  One three-layer graph convolution as functions of whole arrays.

  Every node r has an in-degree deg r, the number of edges whose destination is r. A layer takes node features h
  and replaces row r by ((sum over edges e with destination r of row src e of h) + row r of h) / (deg r + 1),
  then multiplies by a weight matrix and adds a bias row; after the first two layers negative entries are
  replaced by zero. The four pieces below are that computation, spelt with the host operations of the
  reference program, each as a function of its operands: the scale column 1 / (deg + 1), the aggregation, the
  affine map and the clamp at zero. Read at an index of the extended reals, the affine map at (p, q) is the sum
  over k of hn (p, k) * W (k, q) plus b q, and the clamp is the maximum with the zero word.
-/
import proofs.«111350_j19353122635776_1_alg».proof.ReferenceIdeal
import proofs.«111350_j19353122635776_1_alg».proof.Proof.Gen.ReferenceIdeal
import proofs.«111350_j19353122635776_1_alg».proof.Proof.LibDotRows
import Idealize.ShloMosaic.PureOps.Ideal
import Idealize.ShloMosaic.PureOps.Ideal.Laws
import Idealize.ShloMosaic.Lib.ValueIdx
import Idealize.ShloMosaic.Lib.Pipeline.Value

noncomputable section

namespace Cert.Sage

open Cert.ReferenceIdeal Cert.ReferenceIdeal.Gen Idealize.ShloMosaic Idealize.ShloMosaic.ValueIdx Cert.Hand

variable {F : FTy → Type} [FloatOps F]

/-- The scale column: at node r, one over (the number of edges into r, plus one). -/
def degScale (dst : (⟨S800000, .i32⟩ : BufTy).Contents (Elt F)) : (⟨S50000x1, .f32⟩ : BufTy).Contents (Elt F) :=
  broadcastInDim S50000x1 ![0] bcast_S50000_S50000x1_0 (Host.divf (broadcastInDim S50000 ![] bcast_S_S50000 (constant S_ .f32 0x3F800000#32)) (addf (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))) (broadcastInDim S50000 ![] bcast_S_S50000 (constant S_ .f32 0x3F800000#32))))

/-- The aggregation: the rows of h gathered along the edges' sources (a negative source counted from the end)
    and summed into the edges' destinations, plus h itself, each row times its node's scale. -/
def aggregate (h : (⟨S50000x64, .f32⟩ : BufTy).Contents (Elt F)) (src dst : (⟨S800000, .i32⟩ : BufTy).Contents (Elt F))
    (s : (⟨S50000x1, .f32⟩ : BufTy).Contents (Elt F)) : (⟨S50000x64, .f32⟩ : BufTy).Contents (Elt F) :=
  mulf (addf (Host.scatterAdd scatter_S50000x64_S800000x1_S800000x64_1_0_0_1 (broadcastInDim S50000x64 ![] bcast_S_S50000x64 (constant S_ .f32 0x00000000#32)) (broadcastInDim S800000x1 ![0] bcast_S800000_S800000x1_0 dst) (Host.gather gather_S50000x64_S800000x1_S800000x64_1_0_n_n_0_1_164 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))) h) (broadcastInDim S50000x64 ![0, 1] bcast_S50000x1_S50000x64_0_1 (s))

/-- The affine map: hn times the weight matrix, plus the bias row in every row. -/
def affine (hn : (⟨S50000x64, .f32⟩ : BufTy).Contents (Elt F)) (W : (⟨S64x64, .f32⟩ : BufTy).Contents (Elt F))
    (b : (⟨S64, .f32⟩ : BufTy).Contents (Elt F)) : (⟨S50000x64, .f32⟩ : BufTy).Contents (Elt F) :=
  addf (Host.dotGeneral dot_S50000x64_S64x64_S50000x64_1_0_0_1_n_n none (hn) W) (broadcastInDim S50000x64 ![0, 1] bcast_S1x64_S50000x64_0_1 (broadcastInDim S1x64 ![1] bcast_S64_S1x64_1 b))

/-- The clamp at zero, entry by entry. -/
def clamp (x : (⟨S50000x64, .f32⟩ : BufTy).Contents (Elt F)) : (⟨S50000x64, .f32⟩ : BufTy).Contents (Elt F) :=
  maximumf (x) (broadcastInDim S50000x64 ![] bcast_S_S50000x64 (constant S_ .f32 0x00000000#32))

/-- The three layers: clamp after the first two, none after the third. -/
def sage (x : (⟨S50000x64, .f32⟩ : BufTy).Contents (Elt F)) (src dst : (⟨S800000, .i32⟩ : BufTy).Contents (Elt F))
    (W0 : (⟨S64x64, .f32⟩ : BufTy).Contents (Elt F)) (b0 : (⟨S64, .f32⟩ : BufTy).Contents (Elt F))
    (W1 : (⟨S64x64, .f32⟩ : BufTy).Contents (Elt F)) (b1 : (⟨S64, .f32⟩ : BufTy).Contents (Elt F))
    (W2 : (⟨S64x64, .f32⟩ : BufTy).Contents (Elt F)) (b2 : (⟨S64, .f32⟩ : BufTy).Contents (Elt F)) :
    (⟨S50000x64, .f32⟩ : BufTy).Contents (Elt F) :=
  affine (aggregate (clamp (affine (aggregate (clamp (affine (aggregate x src dst (degScale dst)) W0 b0)) src dst (degScale dst)) W1 b1))
    src dst (degScale dst)) W2 b2

/-! ## The affine map and the clamp read at an index of the extended reals -/

/-- The product of hn and W at (p, q): the sum over k of hn (p, k) * W (k, q). -/
theorem product_apply (l : FVec Ideal S50000x64 .f32) (r : FVec Ideal S64x64 .f32)
    (p : Fin 50000) (q : Fin 64) :
    Host.dotGeneral (F := Ideal) dot_S50000x64_S64x64_S50000x64_1_0_0_1_n_n none l r (ix2 p q)
      = ∑ k : Fin 64, l (ix2 p k) * r (ix2 k q) := by
  simp only [Host.dotGeneral]
  rw [Ideal.dotGeneral_apply]
  dot_rows dot_S50000x64_S64x64_S50000x64_1_0_0_1_n_n S50000x64 S64x64 64

/-- The bias row repeated in every row reads, at (p, q), the bias entry q. -/
theorem biasRows_apply (b : FVec Ideal S64 .f32) (p : Fin 50000) (q : Fin 64) :
    broadcastInDim S50000x64 ![0, 1] bcast_S1x64_S50000x64_0_1 (broadcastInDim S1x64 ![1] bcast_S64_S1x64_1 b) (ix2 p q)
      = b (ix1 q) := by
  refine (broadcastInDim_apply _ bcast_S1x64_S50000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

/-- The affine map at (p, q). -/
theorem affine_apply (hn : FVec Ideal S50000x64 .f32) (W : FVec Ideal S64x64 .f32)
    (b : FVec Ideal S64 .f32) (p : Fin 50000) (q : Fin 64) :
    affine (F := Ideal) hn W b (ix2 p q) = (∑ k : Fin 64, hn (ix2 p k) * W (ix2 k q)) + b (ix1 q) := by
  unfold affine
  show Host.dotGeneral (F := Ideal) dot_S50000x64_S64x64_S50000x64_1_0_0_1_n_n none hn W (ix2 p q)
    + broadcastInDim S50000x64 ![0, 1] bcast_S1x64_S50000x64_0_1 (broadcastInDim S1x64 ![1] bcast_S64_S1x64_1 b) (ix2 p q) = _
  rw [product_apply, biasRows_apply]

/-- The clamp at an index: the maximum of the entry and the zero word. -/
theorem clamp_apply (x : FVec Ideal S50000x64 .f32) (i : S50000x64.Idx) :
    clamp (F := Ideal) x i = max (x i) (Ideal.ofBits .f32 0x00000000#32) := by
  unfold clamp
  show max (x i) (broadcastInDim S50000x64 ![] bcast_S_S50000x64 (constant (F := Ideal) S_ .f32 0x00000000#32) i) = _
  rw [broadcastInDim_apply _ bcast_S_S50000x64 _ i (fun a => a.elim0) (fun a => a.elim0)]
  rfl

end Cert.Sage

end
-- ==== Proof.Stretch.lean ====
/-
  The host lines between the layers, as functions of the contents they start from.

  Before each layer's dense step the program gathers the rows of the current features along the edges' sources,
  sums them into the edges' destinations, adds the features and scales each row by its node's 1 / (deg + 1);
  the first stretch also computes that scale column from the destinations. Whatever the buffers hold when a
  stretch begins, the buffer it hands to the dense step afterwards holds the aggregation of the features it
  found, and every buffer it does not write holds what it held.
-/
import proofs.«111350_j19353122635776_1_alg».proof.Proof.Gen.KernelIdeal.Launch
import proofs.«111350_j19353122635776_1_alg».proof.Proof.Spec
import Idealize.ShloMosaic.Lib.StableHlo.Run

noncomputable section

namespace Cert.KernelIdeal.Stretch

open Cert.KernelIdeal Cert.KernelIdeal.Gen Idealize.ShloMosaic Idealize.ShloMosaic.TcCoe Idealize.SL.Sem Idealize.ShloMosaic.StableHlo

variable (W : Valuation τ sig (Elt Ideal))

set_option maxHeartbeats 8000000 in
/-- After the first stretch the first layer's input is the aggregation of the node features, scaled by the
    degrees of the destinations. -/
theorem first_agg : after (hostOps0 (F := Ideal)) W (Proc.devRef .tc main_v21)
    = Cert.Sage.aggregate (F := Ideal) (W (Proc.devRef .tc main_arg0)) (W (Proc.devRef .tc main_arg1)) (W (Proc.devRef .tc main_arg2))
        (Cert.Sage.degScale (F := Ideal) (W (Proc.devRef .tc main_arg2))) := by
  after_results_simp <;> rfl

/-- and the scale column is the degrees' reciprocal. -/
theorem first_scale : after (hostOps0 (F := Ideal)) W (Proc.devRef .tc main_v8)
    = Cert.Sage.degScale (F := Ideal) (W (Proc.devRef .tc main_arg2)) := by
  after_results <;> rfl

theorem first_keep_arg1 : after (hostOps0 (F := Ideal)) W (Proc.devRef .tc main_arg1) = W (Proc.devRef .tc main_arg1) := by
  after_results <;> rfl
theorem first_keep_arg2 : after (hostOps0 (F := Ideal)) W (Proc.devRef .tc main_arg2) = W (Proc.devRef .tc main_arg2) := by
  after_results <;> rfl
theorem first_keep_arg3 : after (hostOps0 (F := Ideal)) W (Proc.devRef .tc main_arg3) = W (Proc.devRef .tc main_arg3) := by
  after_results <;> rfl
theorem first_keep_arg4 : after (hostOps0 (F := Ideal)) W (Proc.devRef .tc main_arg4) = W (Proc.devRef .tc main_arg4) := by
  after_results <;> rfl
theorem first_keep_arg5 : after (hostOps0 (F := Ideal)) W (Proc.devRef .tc main_arg5) = W (Proc.devRef .tc main_arg5) := by
  after_results <;> rfl
theorem first_keep_arg6 : after (hostOps0 (F := Ideal)) W (Proc.devRef .tc main_arg6) = W (Proc.devRef .tc main_arg6) := by
  after_results <;> rfl
theorem first_keep_arg7 : after (hostOps0 (F := Ideal)) W (Proc.devRef .tc main_arg7) = W (Proc.devRef .tc main_arg7) := by
  after_results <;> rfl
theorem first_keep_arg8 : after (hostOps0 (F := Ideal)) W (Proc.devRef .tc main_arg8) = W (Proc.devRef .tc main_arg8) := by
  after_results <;> rfl

set_option maxHeartbeats 8000000 in
/-- After the second stretch the second layer's input is the aggregation of the first layer's output. -/
theorem second_agg : after (hostOps1 (F := Ideal)) W (Proc.devRef .tc main_v35)
    = Cert.Sage.aggregate (F := Ideal) (W (Proc.devRef .tc main_v22)) (W (Proc.devRef .tc main_arg1)) (W (Proc.devRef .tc main_arg2)) (W (Proc.devRef .tc main_v8)) := by
  after_results_simp <;> rfl

theorem second_keep_v8 : after (hostOps1 (F := Ideal)) W (Proc.devRef .tc main_v8) = W (Proc.devRef .tc main_v8) := by
  after_results <;> rfl
theorem second_keep_arg1 : after (hostOps1 (F := Ideal)) W (Proc.devRef .tc main_arg1) = W (Proc.devRef .tc main_arg1) := by
  after_results <;> rfl
theorem second_keep_arg2 : after (hostOps1 (F := Ideal)) W (Proc.devRef .tc main_arg2) = W (Proc.devRef .tc main_arg2) := by
  after_results <;> rfl
theorem second_keep_arg5 : after (hostOps1 (F := Ideal)) W (Proc.devRef .tc main_arg5) = W (Proc.devRef .tc main_arg5) := by
  after_results <;> rfl
theorem second_keep_arg6 : after (hostOps1 (F := Ideal)) W (Proc.devRef .tc main_arg6) = W (Proc.devRef .tc main_arg6) := by
  after_results <;> rfl
theorem second_keep_arg7 : after (hostOps1 (F := Ideal)) W (Proc.devRef .tc main_arg7) = W (Proc.devRef .tc main_arg7) := by
  after_results <;> rfl
theorem second_keep_arg8 : after (hostOps1 (F := Ideal)) W (Proc.devRef .tc main_arg8) = W (Proc.devRef .tc main_arg8) := by
  after_results <;> rfl

set_option maxHeartbeats 8000000 in
/-- After the third stretch the third layer's input is the aggregation of the second layer's output. -/
theorem third_agg : after (hostOps2 (F := Ideal)) W (Proc.devRef .tc main_v49)
    = Cert.Sage.aggregate (F := Ideal) (W (Proc.devRef .tc main_v36)) (W (Proc.devRef .tc main_arg1)) (W (Proc.devRef .tc main_arg2)) (W (Proc.devRef .tc main_v8)) := by
  after_results_simp <;> rfl

theorem third_keep_arg7 : after (hostOps2 (F := Ideal)) W (Proc.devRef .tc main_arg7) = W (Proc.devRef .tc main_arg7) := by
  after_results <;> rfl
theorem third_keep_arg8 : after (hostOps2 (F := Ideal)) W (Proc.devRef .tc main_arg8) = W (Proc.devRef .tc main_arg8) := by
  after_results <;> rfl

end Cert.KernelIdeal.Stretch

end
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.Payload.lean ====
/-
  What one grid step of a layer computes, entry by entry.

  A step loads a block of 5000 rows of the normalised features, the whole 64 x 64 weight matrix and the bias, and
  stores the block times the matrix plus the bias row (the first two layers also replace negative entries by
  zero). On the extended reals the rounding of the operands to a shorter format before the product is the
  identity and the product accumulates into zero, so the stored entry at (p, q) is the sum over k of
  block (p, k) * weights (k, q), plus bias q; clamped, its maximum with the zero word.
-/
import proofs.«111350_j19353122635776_1_alg».proof.Proof.Gen.KernelIdeal.Skeleton
import proofs.«111350_j19353122635776_1_alg».proof.Proof.LibDotRows
import proofs.«111350_j19353122635776_1_alg».proof.Proof.LibRowBroadcast
import proofs.«111350_j19353122635776_1_alg».proof.Proof.LibRowCast
import Idealize.ShloMosaic.PureOps.Ideal.Laws
import Idealize.ShloMosaic.Lib.ValueIdx
import Idealize.ShloMosaic.Lib.Pipeline.Value

noncomputable section

namespace Cert.KernelIdeal.Step

open Cert.KernelIdeal Cert.KernelIdeal.Gen Idealize.ShloMosaic Idealize.ShloMosaic.ValueIdx Cert.Hand

/-- Row p of a block times column q of the weights, plus the bias entry q. -/
def rowCol (x0 : FVec Ideal S5000x64 .f32) (x1 : FVec Ideal S64x64 .f32) (x2 : FVec Ideal S64 .f32) (p : Fin 5000) (q : Fin 64) : EReal :=
  (∑ k : Fin 64, x0 (ix2 p k) * x1 (ix2 k q)) + x2 (ix1 q)

/-- The block product into a zero accumulator at (p, q): the sum over k of l (p, k) * r (k, q). -/
theorem product_apply (l : FVec Ideal S5000x64 .bf16) (r : FVec Ideal S64x64 .bf16) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  simp only [matmul]
  rw [Ideal.matmul_constant_zero_apply]
  dot_rows dot_S5000x64_S64x64_S5000x64_1_0_0_1_n_n S5000x64 S64x64 64

/-- The bias as a row, repeated in the block's 5000 rows, reads the bias entry q at (p, q). -/
theorem biasRows_apply (x2 : FVec Ideal S64 .f32) (p : Fin 5000) (q : Fin 64) :
    broadcastTo S5000x64 (shapeCast S1x64 x2 shapeCasts_S64_S1x64) broadcasts_S1x64_S5000x64 (ix2 p q) = x2 (ix1 q) :=
  (Cert.RowBroadcast.broadcastTo_1b_ab_apply _ _ p q).trans (Cert.RowCast.shapeCast_row_apply _ _ 0 q)

/-- The third layer's stored value at (p, q). -/
theorem pay2_apply (x0 : FVec Ideal S5000x64 .f32) (x1 : FVec Ideal S64x64 .f32) (x2 : FVec Ideal S64 .f32) (p : Fin 5000) (q : Fin 64) :
    k2_pay1 (F := Ideal) x0 x1 x2 (ix2 p q) = rowCol x0 x1 x2 p q := by
  unfold k2_pay1 rowCol
  show matmul dot_S5000x64_S64x64_S5000x64_1_0_0_1_n_n none
        (truncf .bf16 (shapeCast S5000x64 x0 shapeCasts_S5000x64_S5000x64) bitsLt_bf16_f32) (truncf .bf16 x1 bitsLt_bf16_f32)
        (constant S5000x64 .f32 0x00000000#32) (ix2 p q)
      + broadcastTo S5000x64 (shapeCast S1x64 x2 shapeCasts_S64_S1x64) broadcasts_S1x64_S5000x64 (ix2 p q) = _
  rw [product_apply, biasRows_apply, shapeCast_self]
  rfl

/-- The first layer's stored value at (p, q): the same, clamped at zero. -/
theorem pay0_apply (x0 : FVec Ideal S5000x64 .f32) (x1 : FVec Ideal S64x64 .f32) (x2 : FVec Ideal S64 .f32) (p : Fin 5000) (q : Fin 64) :
    k0_pay1 (F := Ideal) x0 x1 x2 (ix2 p q) = max (rowCol x0 x1 x2 p q) (Ideal.ofBits .f32 0x00000000#32) := by
  rw [← pay2_apply]
  rfl

/-- The second layer's likewise. -/
theorem pay1_apply (x0 : FVec Ideal S5000x64 .f32) (x1 : FVec Ideal S64x64 .f32) (x2 : FVec Ideal S64 .f32) (p : Fin 5000) (q : Fin 64) :
    k1_pay1 (F := Ideal) x0 x1 x2 (ix2 p q) = max (rowCol x0 x1 x2 p q) (Ideal.ofBits .f32 0x00000000#32) := by
  rw [← pay2_apply]
  rfl

end Cert.KernelIdeal.Step

end
-- ==== Proof.LayerEntry.lean ====
/-
  A layer's dense step, from blocks to the whole array.

  The grid has ten points; point t reads rows 5000 t ... 5000 t + 4999 of the normalised features (all 64 columns),
  the whole weight matrix and the whole bias at every point, and writes back rows 5000 t ... 5000 t + 4999 of the
  output. Entry (p, q) of what point t writes is the row-by-column sum of its block, which is entry
  (5000 t + p, q) of the affine map of the whole arrays (clamped at zero in the first two layers): each written
  block is the block of ONE whole-array function. The ten blocks tile the 50000 rows, so after the last point the
  output array is that function of the arrays the layer found.
-/
import proofs.«111350_j19353122635776_1_alg».proof.Proof.Payload
import proofs.«111350_j19353122635776_1_alg».proof.Proof.Spec
import Idealize.ShloMosaic.Lib.Pipeline.Value
import Idealize.ShloMosaic.Lib.ValueIdx

set_option maxRecDepth 16384

noncomputable section

namespace Cert.KernelIdeal.Layer

open Cert.KernelIdeal Cert.KernelIdeal.Gen
open Idealize.ShloMosaic Idealize.ShloMosaic.TcCoe Idealize.ShloMosaic.ValueIdx

/-- The zero offsets of a rank-2 access, as the constant zero function. -/
theorem zero2 : (![0, 0] : Fin 2 → Nat) = fun _ => 0 := funext fun a => by fin_cases a <;> rfl
/-- The zero offset of a rank-1 access likewise. -/
theorem zero1 : (![0] : Fin 1 → Nat) = fun _ => 0 := funext fun a => by fin_cases a <;> rfl

/-- Row p of a block that is rows r of the features, against the whole weights and bias: the row-by-column sum is
    the affine map of the whole arrays at (r, q). -/
theorem rowCol_eq (H : FVec Ideal S50000x64 .f32) (Wt : FVec Ideal S64x64 .f32) (B : FVec Ideal S64 .f32)
    (x0 : FVec Ideal S5000x64 .f32) (x1 : FVec Ideal S64x64 .f32) (x2 : FVec Ideal S64 .f32)
    (p : Fin 5000) (q : Fin 64) (r : Fin 50000)
    (h0 : ∀ k : Fin 64, x0 (ix2 p k) = H (ix2 r k)) (h1 : ∀ k : Fin 64, x1 (ix2 k q) = Wt (ix2 k q))
    (h2 : x2 (ix1 q) = B (ix1 q)) :
    Step.rowCol x0 x1 x2 p q = Cert.Sage.affine (F := Ideal) H Wt B (ix2 r q) := by
  rw [Cert.Sage.affine_apply]
  unfold Step.rowCol
  rw [h2]
  exact congrArg (· + B (ix1 q)) (Finset.sum_congr rfl fun k _ => by rw [h0 k, h1 k])

end Cert.KernelIdeal.Layer

end
-- ==== Proof.Layer0.lean ====
/-
  The first layer's dense step as one function of whole arrays: its ten row blocks, each the block of the
  clamped affine map of the arrays the step found, tile the output.
-/
import proofs.«111350_j19353122635776_1_alg».proof.Proof.Gen.KernelIdeal.Frame
import proofs.«111350_j19353122635776_1_alg».proof.Proof.LayerEntry

set_option maxRecDepth 16384

noncomputable section

namespace Cert.KernelIdeal.Layer0

open Cert.KernelIdeal Cert.KernelIdeal.Gen Cert.KernelIdeal.Layer
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The index maps over the grid: the features' and the output's blocks move together down the rows and stay at
    column block 0; the weights' and the bias's blocks never move; there are ten row blocks. -/
theorem index_facts : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 1) = 0 ∧ win0_3.index t (0 : Fin 2) ≤ 9 :=
  (by decide +kernel : ∀ t : Fin grid0.N, _)

/-- Every row block is some point's. -/
theorem index_onto : ∀ (b : Fin 10), ∃ t : Fin cfg0.N, win0_3.index t (0 : Fin 2) = b.val :=
  (by decide +kernel : ∀ (b : Fin 10), ∃ t : Fin grid0.N, win0_3.index t (0 : Fin 2) = b.val)

/-- One stored entry: entry j of what point t stores is the clamped affine map of the whole arrays at the place of j
    in the output. -/
theorem stored_entry (H : FVec Ideal S50000x64 .f32) (Wt : FVec Ideal S64x64 .f32) (B : FVec Ideal S64 .f32)
    (x0 : FVec Ideal S5000x64 .f32) (x1 : FVec Ideal S64x64 .f32) (x2 : FVec Ideal S64 .f32)
    (p : Fin 5000) (q : Fin 64) (r : Fin 50000)
    (h0 : ∀ k : Fin 64, x0 (ix2 p k) = H (ix2 r k)) (h1 : ∀ k : Fin 64, x1 (ix2 k q) = Wt (ix2 k q))
    (h2 : x2 (ix1 q) = B (ix1 q)) :
    k0_pay1 (F := Ideal) x0 x1 x2 (ix2 p q) = Cert.Sage.clamp (F := Ideal) (Cert.Sage.affine (F := Ideal) H Wt B) (ix2 r q) := by
  rw [Step.pay0_apply, Cert.Sage.clamp_apply, rowCol_eq H Wt B x0 x1 x2 p q r h0 h1 h2]

/-- WHAT POINT t WRITES BACK is block t of the clamped affine map of the arrays as the step finds them. -/
theorem flushed_eq (c : Dev nD) (t : Fin cfg0.N) :
    (dat0 V c).flushed 3 t = ((cfg0.win 3).blk t).view.read (Elt Ideal) (Cert.Sage.clamp (F := Ideal) (Cert.Sage.affine (F := Ideal) (V c main_v21) (V c main_arg3) (V c main_arg4))) := by
  show (cfg0.win 3).cut (grid0.coords t) ((dat0 V c).after 3 t) = _
  rw [after0_3]
  unfold out0_3
  rw [View.canon_unit_zero zero2]
  simp only [View.ld_unit_zero (S := S5000x64) zero2, View.ld_unit_zero (S := S64x64) zero2, View.ld_unit_zero (S := S64) zero1]
  obtain ⟨e0, e1, e2, e3, e4, e5, e6⟩ := index_facts t
  funext j
  have hj0 : (j 0).val < 5000 := (j 0).isLt
  have hj1 : (j 1).val < 64 := (j 1).isLt
  have hr : win0_3.index t (0 : Fin 2) * 5000 + (j 0).val < 50000 := by omega
  have ej : j = ix2 (⟨(j 0).val, hj0⟩ : Fin 5000) (⟨(j 1).val, hj1⟩ : Fin 64) :=
    funext fun a => Fin.ext (by match a with | ⟨0, _⟩ => rfl | ⟨1, _⟩ => rfl)
  have ei : ((cfg0.win 3).blk t).view.emb j
      = ix2 (⟨win0_3.index t (0 : Fin 2) * 5000 + (j 0).val, hr⟩ : Fin 50000) (⟨(j 1).val, hj1⟩ : Fin 64) :=
    funext fun a => Fin.ext (by
      match a with
      | ⟨0, _⟩ => show win0_3.index t (0 : Fin 2) * 5000 + 1 * (j 0).val = win0_3.index t (0 : Fin 2) * 5000 + (j 0).val; omega
      | ⟨1, _⟩ => show win0_3.index t (1 : Fin 2) * 64 + 1 * (j 1).val = (j 1).val; omega)
  show k0_pay1 (F := Ideal) (iblk0 V c 0 t) (iblk0 V c 1 t) (iblk0 V c 2 t) j = (Cert.Sage.clamp (F := Ideal) (Cert.Sage.affine (F := Ideal) (V c main_v21) (V c main_arg3) (V c main_arg4))) (((cfg0.win 3).blk t).view.emb j)
  rw [ei]
  refine (congrArg (k0_pay1 (F := Ideal) (iblk0 V c 0 t) (iblk0 V c 1 t) (iblk0 V c 2 t)) ej).trans ?_
  refine stored_entry (V c main_v21) (V c main_arg3) (V c main_arg4) (iblk0 V c 0 t) (iblk0 V c 1 t) (iblk0 V c 2 t) _ _ _ ?_ ?_ ?_
  · intro k
    show V c main_v21 (((cfg0.win 0).blk t).view.emb (ix2 (⟨(j 0).val, hj0⟩ : Fin 5000) k)) = _
    refine congrArg (V c main_v21) (funext fun a => Fin.ext ?_)
    match a with
    | ⟨0, _⟩ => show win0_0.index t (0 : Fin 2) * 5000 + 1 * (j 0).val = win0_3.index t (0 : Fin 2) * 5000 + (j 0).val; omega
    | ⟨1, _⟩ => show win0_0.index t (1 : Fin 2) * 64 + 1 * k.val = k.val; omega
  · intro k
    show V c main_arg3 (((cfg0.win 1).blk t).view.emb (ix2 k (⟨(j 1).val, hj1⟩ : Fin 64))) = _
    refine congrArg (V c main_arg3) (funext fun a => Fin.ext ?_)
    match a with
    | ⟨0, _⟩ => show win0_1.index t (0 : Fin 2) * 64 + 1 * k.val = k.val; omega
    | ⟨1, _⟩ => show win0_1.index t (1 : Fin 2) * 64 + 1 * (j 1).val = (j 1).val; omega
  · show V c main_arg4 (((cfg0.win 2).blk t).view.emb (ix1 (⟨(j 1).val, hj1⟩ : Fin 64))) = _
    refine congrArg (V c main_arg4) (funext fun a => Fin.ext ?_)
    match a with
    | ⟨0, _⟩ => show win0_2.index t (0 : Fin 1) * 64 + 1 * (j 1).val = (j 1).val; omega

/-- An index of the output is in point t's block iff each coordinate is in the block's range on its axis. -/
theorem mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v22).slice (win0_3.rect t)).set ↔ _
  rw [View.set_slice_whole, Rect.mem_set_unit]
  exact Iff.rfl

/-- The ten row blocks cover the output: row r is in block r / 5000. -/
theorem covered (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := index_onto ⟨(i 0).val / 5000, by omega⟩
  have ht' : win0_3.index t (0 : Fin 2) = (i 0).val / 5000 := ht
  obtain ⟨e0, e1, e2, e3, e4, e5, e6⟩ := index_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- THE OUTPUT ARRAY after the step: the clamped affine map of the arrays it found. -/
theorem output_eq (c : Dev nD) : (dat0 V c).arrAt 3 cfg0.N = Cert.Sage.clamp (F := Ideal) (Cert.Sage.affine (F := Ideal) (V c main_v21) (V c main_arg3) (V c main_arg4)) :=
  (dat0 V c).arrAt_eq_of_cover 3 _ (fun t _ => flushed_eq V c t) (covered)

end Cert.KernelIdeal.Layer0

end
-- ==== Proof.Layer1.lean ====
/-
  The second layer's dense step as one function of whole arrays: its ten row blocks, each the block of the
  clamped affine map of the arrays the step found, tile the output.
-/
import proofs.«111350_j19353122635776_1_alg».proof.Proof.Gen.KernelIdeal.Frame
import proofs.«111350_j19353122635776_1_alg».proof.Proof.LayerEntry

set_option maxRecDepth 16384

noncomputable section

namespace Cert.KernelIdeal.Layer1

open Cert.KernelIdeal Cert.KernelIdeal.Gen Cert.KernelIdeal.Layer
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The index maps over the grid: the features' and the output's blocks move together down the rows and stay at
    column block 0; the weights' and the bias's blocks never move; there are ten row blocks. -/
theorem index_facts : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 1) = 0 ∧ win1_3.index t (0 : Fin 2) ≤ 9 :=
  (by decide +kernel : ∀ t : Fin grid1.N, _)

/-- Every row block is some point's. -/
theorem index_onto : ∀ (b : Fin 10), ∃ t : Fin cfg1.N, win1_3.index t (0 : Fin 2) = b.val :=
  (by decide +kernel : ∀ (b : Fin 10), ∃ t : Fin grid1.N, win1_3.index t (0 : Fin 2) = b.val)

/-- One stored entry: entry j of what point t stores is the clamped affine map of the whole arrays at the place of j
    in the output. -/
theorem stored_entry (H : FVec Ideal S50000x64 .f32) (Wt : FVec Ideal S64x64 .f32) (B : FVec Ideal S64 .f32)
    (x0 : FVec Ideal S5000x64 .f32) (x1 : FVec Ideal S64x64 .f32) (x2 : FVec Ideal S64 .f32)
    (p : Fin 5000) (q : Fin 64) (r : Fin 50000)
    (h0 : ∀ k : Fin 64, x0 (ix2 p k) = H (ix2 r k)) (h1 : ∀ k : Fin 64, x1 (ix2 k q) = Wt (ix2 k q))
    (h2 : x2 (ix1 q) = B (ix1 q)) :
    k1_pay1 (F := Ideal) x0 x1 x2 (ix2 p q) = Cert.Sage.clamp (F := Ideal) (Cert.Sage.affine (F := Ideal) H Wt B) (ix2 r q) := by
  rw [Step.pay1_apply, Cert.Sage.clamp_apply, rowCol_eq H Wt B x0 x1 x2 p q r h0 h1 h2]

/-- WHAT POINT t WRITES BACK is block t of the clamped affine map of the arrays as the step finds them. -/
theorem flushed_eq (c : Dev nD) (t : Fin cfg1.N) :
    (dat1 V c).flushed 3 t = ((cfg1.win 3).blk t).view.read (Elt Ideal) (Cert.Sage.clamp (F := Ideal) (Cert.Sage.affine (F := Ideal) (V c main_v35) (V c main_arg5) (V c main_arg6))) := by
  show (cfg1.win 3).cut (grid1.coords t) ((dat1 V c).after 3 t) = _
  rw [after1_3]
  unfold out1_3
  rw [View.canon_unit_zero zero2]
  simp only [View.ld_unit_zero (S := S5000x64) zero2, View.ld_unit_zero (S := S64x64) zero2, View.ld_unit_zero (S := S64) zero1]
  obtain ⟨e0, e1, e2, e3, e4, e5, e6⟩ := index_facts t
  funext j
  have hj0 : (j 0).val < 5000 := (j 0).isLt
  have hj1 : (j 1).val < 64 := (j 1).isLt
  have hr : win1_3.index t (0 : Fin 2) * 5000 + (j 0).val < 50000 := by omega
  have ej : j = ix2 (⟨(j 0).val, hj0⟩ : Fin 5000) (⟨(j 1).val, hj1⟩ : Fin 64) :=
    funext fun a => Fin.ext (by match a with | ⟨0, _⟩ => rfl | ⟨1, _⟩ => rfl)
  have ei : ((cfg1.win 3).blk t).view.emb j
      = ix2 (⟨win1_3.index t (0 : Fin 2) * 5000 + (j 0).val, hr⟩ : Fin 50000) (⟨(j 1).val, hj1⟩ : Fin 64) :=
    funext fun a => Fin.ext (by
      match a with
      | ⟨0, _⟩ => show win1_3.index t (0 : Fin 2) * 5000 + 1 * (j 0).val = win1_3.index t (0 : Fin 2) * 5000 + (j 0).val; omega
      | ⟨1, _⟩ => show win1_3.index t (1 : Fin 2) * 64 + 1 * (j 1).val = (j 1).val; omega)
  show k1_pay1 (F := Ideal) (iblk1 V c 0 t) (iblk1 V c 1 t) (iblk1 V c 2 t) j = (Cert.Sage.clamp (F := Ideal) (Cert.Sage.affine (F := Ideal) (V c main_v35) (V c main_arg5) (V c main_arg6))) (((cfg1.win 3).blk t).view.emb j)
  rw [ei]
  refine (congrArg (k1_pay1 (F := Ideal) (iblk1 V c 0 t) (iblk1 V c 1 t) (iblk1 V c 2 t)) ej).trans ?_
  refine stored_entry (V c main_v35) (V c main_arg5) (V c main_arg6) (iblk1 V c 0 t) (iblk1 V c 1 t) (iblk1 V c 2 t) _ _ _ ?_ ?_ ?_
  · intro k
    show V c main_v35 (((cfg1.win 0).blk t).view.emb (ix2 (⟨(j 0).val, hj0⟩ : Fin 5000) k)) = _
    refine congrArg (V c main_v35) (funext fun a => Fin.ext ?_)
    match a with
    | ⟨0, _⟩ => show win1_0.index t (0 : Fin 2) * 5000 + 1 * (j 0).val = win1_3.index t (0 : Fin 2) * 5000 + (j 0).val; omega
    | ⟨1, _⟩ => show win1_0.index t (1 : Fin 2) * 64 + 1 * k.val = k.val; omega
  · intro k
    show V c main_arg5 (((cfg1.win 1).blk t).view.emb (ix2 k (⟨(j 1).val, hj1⟩ : Fin 64))) = _
    refine congrArg (V c main_arg5) (funext fun a => Fin.ext ?_)
    match a with
    | ⟨0, _⟩ => show win1_1.index t (0 : Fin 2) * 64 + 1 * k.val = k.val; omega
    | ⟨1, _⟩ => show win1_1.index t (1 : Fin 2) * 64 + 1 * (j 1).val = (j 1).val; omega
  · show V c main_arg6 (((cfg1.win 2).blk t).view.emb (ix1 (⟨(j 1).val, hj1⟩ : Fin 64))) = _
    refine congrArg (V c main_arg6) (funext fun a => Fin.ext ?_)
    match a with
    | ⟨0, _⟩ => show win1_2.index t (0 : Fin 1) * 64 + 1 * (j 1).val = (j 1).val; omega

/-- An index of the output is in point t's block iff each coordinate is in the block's range on its axis. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v36).slice (win1_3.rect t)).set ↔ _
  rw [View.set_slice_whole, Rect.mem_set_unit]
  exact Iff.rfl

/-- The ten row blocks cover the output: row r is in block r / 5000. -/
theorem covered (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := index_onto ⟨(i 0).val / 5000, by omega⟩
  have ht' : win1_3.index t (0 : Fin 2) = (i 0).val / 5000 := ht
  obtain ⟨e0, e1, e2, e3, e4, e5, e6⟩ := index_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- THE OUTPUT ARRAY after the step: the clamped affine map of the arrays it found. -/
theorem output_eq (c : Dev nD) : (dat1 V c).arrAt 3 cfg1.N = Cert.Sage.clamp (F := Ideal) (Cert.Sage.affine (F := Ideal) (V c main_v35) (V c main_arg5) (V c main_arg6)) :=
  (dat1 V c).arrAt_eq_of_cover 3 _ (fun t _ => flushed_eq V c t) (covered)

end Cert.KernelIdeal.Layer1

end
-- ==== Proof.Layer2.lean ====
/-
  The third layer's dense step as one function of whole arrays: its ten row blocks, each the block of the
  affine map of the arrays the step found, tile the output.
-/
import proofs.«111350_j19353122635776_1_alg».proof.Proof.Gen.KernelIdeal.Frame
import proofs.«111350_j19353122635776_1_alg».proof.Proof.LayerEntry

set_option maxRecDepth 16384

noncomputable section

namespace Cert.KernelIdeal.Layer2

open Cert.KernelIdeal Cert.KernelIdeal.Gen Cert.KernelIdeal.Layer
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The index maps over the grid: the features' and the output's blocks move together down the rows and stay at
    column block 0; the weights' and the bias's blocks never move; there are ten row blocks. -/
theorem index_facts : ∀ t : Fin cfg2.N, win2_0.index t (0 : Fin 2) = win2_3.index t (0 : Fin 2)
    ∧ win2_0.index t (1 : Fin 2) = 0 ∧ win2_3.index t (1 : Fin 2) = 0
    ∧ win2_1.index t (0 : Fin 2) = 0 ∧ win2_1.index t (1 : Fin 2) = 0
    ∧ win2_2.index t (0 : Fin 1) = 0 ∧ win2_3.index t (0 : Fin 2) ≤ 9 :=
  (by decide +kernel : ∀ t : Fin grid2.N, _)

/-- Every row block is some point's. -/
theorem index_onto : ∀ (b : Fin 10), ∃ t : Fin cfg2.N, win2_3.index t (0 : Fin 2) = b.val :=
  (by decide +kernel : ∀ (b : Fin 10), ∃ t : Fin grid2.N, win2_3.index t (0 : Fin 2) = b.val)

/-- One stored entry: entry j of what point t stores is the affine map of the whole arrays at the place of j
    in the output. -/
theorem stored_entry (H : FVec Ideal S50000x64 .f32) (Wt : FVec Ideal S64x64 .f32) (B : FVec Ideal S64 .f32)
    (x0 : FVec Ideal S5000x64 .f32) (x1 : FVec Ideal S64x64 .f32) (x2 : FVec Ideal S64 .f32)
    (p : Fin 5000) (q : Fin 64) (r : Fin 50000)
    (h0 : ∀ k : Fin 64, x0 (ix2 p k) = H (ix2 r k)) (h1 : ∀ k : Fin 64, x1 (ix2 k q) = Wt (ix2 k q))
    (h2 : x2 (ix1 q) = B (ix1 q)) :
    k2_pay1 (F := Ideal) x0 x1 x2 (ix2 p q) = Cert.Sage.affine (F := Ideal) H Wt B (ix2 r q) := by
  rw [Step.pay2_apply, rowCol_eq H Wt B x0 x1 x2 p q r h0 h1 h2]

/-- WHAT POINT t WRITES BACK is block t of the affine map of the arrays as the step finds them. -/
theorem flushed_eq (c : Dev nD) (t : Fin cfg2.N) :
    (dat2 V c).flushed 3 t = ((cfg2.win 3).blk t).view.read (Elt Ideal) (Cert.Sage.affine (F := Ideal) (V c main_v49) (V c main_arg7) (V c main_arg8)) := by
  show (cfg2.win 3).cut (grid2.coords t) ((dat2 V c).after 3 t) = _
  rw [after2_3]
  unfold out2_3
  rw [View.canon_unit_zero zero2]
  simp only [View.ld_unit_zero (S := S5000x64) zero2, View.ld_unit_zero (S := S64x64) zero2, View.ld_unit_zero (S := S64) zero1]
  obtain ⟨e0, e1, e2, e3, e4, e5, e6⟩ := index_facts t
  funext j
  have hj0 : (j 0).val < 5000 := (j 0).isLt
  have hj1 : (j 1).val < 64 := (j 1).isLt
  have hr : win2_3.index t (0 : Fin 2) * 5000 + (j 0).val < 50000 := by omega
  have ej : j = ix2 (⟨(j 0).val, hj0⟩ : Fin 5000) (⟨(j 1).val, hj1⟩ : Fin 64) :=
    funext fun a => Fin.ext (by match a with | ⟨0, _⟩ => rfl | ⟨1, _⟩ => rfl)
  have ei : ((cfg2.win 3).blk t).view.emb j
      = ix2 (⟨win2_3.index t (0 : Fin 2) * 5000 + (j 0).val, hr⟩ : Fin 50000) (⟨(j 1).val, hj1⟩ : Fin 64) :=
    funext fun a => Fin.ext (by
      match a with
      | ⟨0, _⟩ => show win2_3.index t (0 : Fin 2) * 5000 + 1 * (j 0).val = win2_3.index t (0 : Fin 2) * 5000 + (j 0).val; omega
      | ⟨1, _⟩ => show win2_3.index t (1 : Fin 2) * 64 + 1 * (j 1).val = (j 1).val; omega)
  show k2_pay1 (F := Ideal) (iblk2 V c 0 t) (iblk2 V c 1 t) (iblk2 V c 2 t) j = (Cert.Sage.affine (F := Ideal) (V c main_v49) (V c main_arg7) (V c main_arg8)) (((cfg2.win 3).blk t).view.emb j)
  rw [ei]
  refine (congrArg (k2_pay1 (F := Ideal) (iblk2 V c 0 t) (iblk2 V c 1 t) (iblk2 V c 2 t)) ej).trans ?_
  refine stored_entry (V c main_v49) (V c main_arg7) (V c main_arg8) (iblk2 V c 0 t) (iblk2 V c 1 t) (iblk2 V c 2 t) _ _ _ ?_ ?_ ?_
  · intro k
    show V c main_v49 (((cfg2.win 0).blk t).view.emb (ix2 (⟨(j 0).val, hj0⟩ : Fin 5000) k)) = _
    refine congrArg (V c main_v49) (funext fun a => Fin.ext ?_)
    match a with
    | ⟨0, _⟩ => show win2_0.index t (0 : Fin 2) * 5000 + 1 * (j 0).val = win2_3.index t (0 : Fin 2) * 5000 + (j 0).val; omega
    | ⟨1, _⟩ => show win2_0.index t (1 : Fin 2) * 64 + 1 * k.val = k.val; omega
  · intro k
    show V c main_arg7 (((cfg2.win 1).blk t).view.emb (ix2 k (⟨(j 1).val, hj1⟩ : Fin 64))) = _
    refine congrArg (V c main_arg7) (funext fun a => Fin.ext ?_)
    match a with
    | ⟨0, _⟩ => show win2_1.index t (0 : Fin 2) * 64 + 1 * k.val = k.val; omega
    | ⟨1, _⟩ => show win2_1.index t (1 : Fin 2) * 64 + 1 * (j 1).val = (j 1).val; omega
  · show V c main_arg8 (((cfg2.win 2).blk t).view.emb (ix1 (⟨(j 1).val, hj1⟩ : Fin 64))) = _
    refine congrArg (V c main_arg8) (funext fun a => Fin.ext ?_)
    match a with
    | ⟨0, _⟩ => show win2_2.index t (0 : Fin 1) * 64 + 1 * (j 1).val = (j 1).val; omega

/-- An index of the output is in point t's block iff each coordinate is in the block's range on its axis. -/
theorem mem_blk (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v50).slice (win2_3.rect t)).set ↔ _
  rw [View.set_slice_whole, Rect.mem_set_unit]
  exact Iff.rfl

/-- The ten row blocks cover the output: row r is in block r / 5000. -/
theorem covered (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ := index_onto ⟨(i 0).val / 5000, by omega⟩
  have ht' : win2_3.index t (0 : Fin 2) = (i 0).val / 5000 := ht
  obtain ⟨e0, e1, e2, e3, e4, e5, e6⟩ := index_facts t
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- THE OUTPUT ARRAY after the step: the affine map of the arrays it found. -/
theorem output_eq (c : Dev nD) : (dat2 V c).arrAt 3 cfg2.N = Cert.Sage.affine (F := Ideal) (V c main_v49) (V c main_arg7) (V c main_arg8) :=
  (dat2 V c).arrAt_eq_of_cover 3 _ (fun t _ => flushed_eq V c t) (covered)

end Cert.KernelIdeal.Layer2

end
-- ==== Proof.KernelValue.lean ====
/-
  The result of the three-layer program as one function of its arguments.

  The contents of the buffers at the six segment boundaries are read one after the other: after the first stretch
  the scale column and the aggregated features, then the first dense step's output (the clamped affine map of what
  it found), the second stretch's aggregation of that, the second step's output, the third stretch's aggregation,
  and the third step's output, an affine map without clamp. The edge lists, the weights, the biases and the scale
  column are written by no later segment, so each later segment finds them as they were. Composed, the result
  array holds the three-layer function of the nine argument arrays.
-/
import proofs.«111350_j19353122635776_1_alg».proof.Proof.Gen.KernelIdeal.Frame
import proofs.«111350_j19353122635776_1_alg».proof.Proof.Stretch
import proofs.«111350_j19353122635776_1_alg».proof.Proof.Layer0
import proofs.«111350_j19353122635776_1_alg».proof.Proof.Layer1
import proofs.«111350_j19353122635776_1_alg».proof.Proof.Layer2

set_option maxRecDepth 16384

noncomputable section

namespace Cert.KernelIdeal.Result

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

set_option maxHeartbeats 4000000 in
/-- The result array at the last boundary is the three-layer function of the launch contents of the arguments. -/
theorem result_eq (c : Dev nD) :
    W6 m ρ c (Proc.devRef .tc main_v50)
      = Cert.Sage.sage (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have g1 : W1 m ρ c (Proc.devRef .tc main_v21) = (Cert.Sage.aggregate (F := Ideal) (m ((c : Thread nD τ).loc main_arg0)) (m ((c : Thread nD τ).loc main_arg1)) (m ((c : Thread nD τ).loc main_arg2)) (Cert.Sage.degScale (F := Ideal) (m ((c : Thread nD τ).loc main_arg2)))) := Stretch.first_agg (W0 m ρ c)
  have k1_v8 : W1 m ρ c (Proc.devRef .tc main_v8) = (Cert.Sage.degScale (F := Ideal) (m ((c : Thread nD τ).loc main_arg2))) := Stretch.first_scale (W0 m ρ c)
  have k1_arg1 : W1 m ρ c (Proc.devRef .tc main_arg1) = (m ((c : Thread nD τ).loc main_arg1)) := Stretch.first_keep_arg1 (W0 m ρ c)
  have k1_arg2 : W1 m ρ c (Proc.devRef .tc main_arg2) = (m ((c : Thread nD τ).loc main_arg2)) := Stretch.first_keep_arg2 (W0 m ρ c)
  have k1_arg3 : W1 m ρ c (Proc.devRef .tc main_arg3) = (m ((c : Thread nD τ).loc main_arg3)) := Stretch.first_keep_arg3 (W0 m ρ c)
  have k1_arg4 : W1 m ρ c (Proc.devRef .tc main_arg4) = (m ((c : Thread nD τ).loc main_arg4)) := Stretch.first_keep_arg4 (W0 m ρ c)
  have k1_arg5 : W1 m ρ c (Proc.devRef .tc main_arg5) = (m ((c : Thread nD τ).loc main_arg5)) := Stretch.first_keep_arg5 (W0 m ρ c)
  have k1_arg6 : W1 m ρ c (Proc.devRef .tc main_arg6) = (m ((c : Thread nD τ).loc main_arg6)) := Stretch.first_keep_arg6 (W0 m ρ c)
  have k1_arg7 : W1 m ρ c (Proc.devRef .tc main_arg7) = (m ((c : Thread nD τ).loc main_arg7)) := Stretch.first_keep_arg7 (W0 m ρ c)
  have k1_arg8 : W1 m ρ c (Proc.devRef .tc main_arg8) = (m ((c : Thread nD τ).loc main_arg8)) := Stretch.first_keep_arg8 (W0 m ρ c)
  have o2 : W2 m ρ c (Proc.devRef .tc main_v22) = (Cert.Sage.clamp (F := Ideal) (Cert.Sage.affine (F := Ideal) (Cert.Sage.aggregate (F := Ideal) (m ((c : Thread nD τ).loc main_arg0)) (m ((c : Thread nD τ).loc main_arg1)) (m ((c : Thread nD τ).loc main_arg2)) (Cert.Sage.degScale (F := Ideal) (m ((c : Thread nD τ).loc main_arg2)))) (m ((c : Thread nD τ).loc main_arg3)) (m ((c : Thread nD τ).loc main_arg4)))) := by
    refine ((W2_arr m ρ c 3).trans (Layer0.output_eq (V1 m ρ) c)).trans ?_
    show Cert.Sage.clamp (F := Ideal) (Cert.Sage.affine (F := Ideal) (W1 m ρ c (Proc.devRef .tc main_v21)) (W1 m ρ c (Proc.devRef .tc main_arg3)) (W1 m ρ c (Proc.devRef .tc main_arg4))) = _
    rw [g1, k1_arg3, k1_arg4]
  have k2_v8 : W2 m ρ c (Proc.devRef .tc main_v8) = (Cert.Sage.degScale (F := Ideal) (m ((c : Thread nD τ).loc main_arg2))) := (W2_of_ne m ρ c main_v8 (by decide)).trans k1_v8
  have k2_arg1 : W2 m ρ c (Proc.devRef .tc main_arg1) = (m ((c : Thread nD τ).loc main_arg1)) := (W2_of_ne m ρ c main_arg1 (by decide)).trans k1_arg1
  have k2_arg2 : W2 m ρ c (Proc.devRef .tc main_arg2) = (m ((c : Thread nD τ).loc main_arg2)) := (W2_of_ne m ρ c main_arg2 (by decide)).trans k1_arg2
  have k2_arg5 : W2 m ρ c (Proc.devRef .tc main_arg5) = (m ((c : Thread nD τ).loc main_arg5)) := (W2_of_ne m ρ c main_arg5 (by decide)).trans k1_arg5
  have k2_arg6 : W2 m ρ c (Proc.devRef .tc main_arg6) = (m ((c : Thread nD τ).loc main_arg6)) := (W2_of_ne m ρ c main_arg6 (by decide)).trans k1_arg6
  have k2_arg7 : W2 m ρ c (Proc.devRef .tc main_arg7) = (m ((c : Thread nD τ).loc main_arg7)) := (W2_of_ne m ρ c main_arg7 (by decide)).trans k1_arg7
  have k2_arg8 : W2 m ρ c (Proc.devRef .tc main_arg8) = (m ((c : Thread nD τ).loc main_arg8)) := (W2_of_ne m ρ c main_arg8 (by decide)).trans k1_arg8
  have g3 : W3 m ρ c (Proc.devRef .tc main_v35) = (Cert.Sage.aggregate (F := Ideal) (Cert.Sage.clamp (F := Ideal) (Cert.Sage.affine (F := Ideal) (Cert.Sage.aggregate (F := Ideal) (m ((c : Thread nD τ).loc main_arg0)) (m ((c : Thread nD τ).loc main_arg1)) (m ((c : Thread nD τ).loc main_arg2)) (Cert.Sage.degScale (F := Ideal) (m ((c : Thread nD τ).loc main_arg2)))) (m ((c : Thread nD τ).loc main_arg3)) (m ((c : Thread nD τ).loc main_arg4)))) (m ((c : Thread nD τ).loc main_arg1)) (m ((c : Thread nD τ).loc main_arg2)) (Cert.Sage.degScale (F := Ideal) (m ((c : Thread nD τ).loc main_arg2)))) := by
    refine (Stretch.second_agg (W2 m ρ c)).trans ?_
    rw [o2, k2_arg1, k2_arg2, k2_v8]
  have k3_v8 : W3 m ρ c (Proc.devRef .tc main_v8) = (Cert.Sage.degScale (F := Ideal) (m ((c : Thread nD τ).loc main_arg2))) := (Stretch.second_keep_v8 (W2 m ρ c)).trans k2_v8
  have k3_arg1 : W3 m ρ c (Proc.devRef .tc main_arg1) = (m ((c : Thread nD τ).loc main_arg1)) := (Stretch.second_keep_arg1 (W2 m ρ c)).trans k2_arg1
  have k3_arg2 : W3 m ρ c (Proc.devRef .tc main_arg2) = (m ((c : Thread nD τ).loc main_arg2)) := (Stretch.second_keep_arg2 (W2 m ρ c)).trans k2_arg2
  have k3_arg5 : W3 m ρ c (Proc.devRef .tc main_arg5) = (m ((c : Thread nD τ).loc main_arg5)) := (Stretch.second_keep_arg5 (W2 m ρ c)).trans k2_arg5
  have k3_arg6 : W3 m ρ c (Proc.devRef .tc main_arg6) = (m ((c : Thread nD τ).loc main_arg6)) := (Stretch.second_keep_arg6 (W2 m ρ c)).trans k2_arg6
  have k3_arg7 : W3 m ρ c (Proc.devRef .tc main_arg7) = (m ((c : Thread nD τ).loc main_arg7)) := (Stretch.second_keep_arg7 (W2 m ρ c)).trans k2_arg7
  have k3_arg8 : W3 m ρ c (Proc.devRef .tc main_arg8) = (m ((c : Thread nD τ).loc main_arg8)) := (Stretch.second_keep_arg8 (W2 m ρ c)).trans k2_arg8
  have o4 : W4 m ρ c (Proc.devRef .tc main_v36) = (Cert.Sage.clamp (F := Ideal) (Cert.Sage.affine (F := Ideal) (Cert.Sage.aggregate (F := Ideal) (Cert.Sage.clamp (F := Ideal) (Cert.Sage.affine (F := Ideal) (Cert.Sage.aggregate (F := Ideal) (m ((c : Thread nD τ).loc main_arg0)) (m ((c : Thread nD τ).loc main_arg1)) (m ((c : Thread nD τ).loc main_arg2)) (Cert.Sage.degScale (F := Ideal) (m ((c : Thread nD τ).loc main_arg2)))) (m ((c : Thread nD τ).loc main_arg3)) (m ((c : Thread nD τ).loc main_arg4)))) (m ((c : Thread nD τ).loc main_arg1)) (m ((c : Thread nD τ).loc main_arg2)) (Cert.Sage.degScale (F := Ideal) (m ((c : Thread nD τ).loc main_arg2)))) (m ((c : Thread nD τ).loc main_arg5)) (m ((c : Thread nD τ).loc main_arg6)))) := by
    refine ((W4_arr m ρ c 3).trans (Layer1.output_eq (V3 m ρ) c)).trans ?_
    show Cert.Sage.clamp (F := Ideal) (Cert.Sage.affine (F := Ideal) (W3 m ρ c (Proc.devRef .tc main_v35)) (W3 m ρ c (Proc.devRef .tc main_arg5)) (W3 m ρ c (Proc.devRef .tc main_arg6))) = _
    rw [g3, k3_arg5, k3_arg6]
  have k4_v8 : W4 m ρ c (Proc.devRef .tc main_v8) = (Cert.Sage.degScale (F := Ideal) (m ((c : Thread nD τ).loc main_arg2))) := (W4_of_ne m ρ c main_v8 (by decide)).trans k3_v8
  have k4_arg1 : W4 m ρ c (Proc.devRef .tc main_arg1) = (m ((c : Thread nD τ).loc main_arg1)) := (W4_of_ne m ρ c main_arg1 (by decide)).trans k3_arg1
  have k4_arg2 : W4 m ρ c (Proc.devRef .tc main_arg2) = (m ((c : Thread nD τ).loc main_arg2)) := (W4_of_ne m ρ c main_arg2 (by decide)).trans k3_arg2
  have k4_arg7 : W4 m ρ c (Proc.devRef .tc main_arg7) = (m ((c : Thread nD τ).loc main_arg7)) := (W4_of_ne m ρ c main_arg7 (by decide)).trans k3_arg7
  have k4_arg8 : W4 m ρ c (Proc.devRef .tc main_arg8) = (m ((c : Thread nD τ).loc main_arg8)) := (W4_of_ne m ρ c main_arg8 (by decide)).trans k3_arg8
  have g5 : W5 m ρ c (Proc.devRef .tc main_v49) = (Cert.Sage.aggregate (F := Ideal) (Cert.Sage.clamp (F := Ideal) (Cert.Sage.affine (F := Ideal) (Cert.Sage.aggregate (F := Ideal) (Cert.Sage.clamp (F := Ideal) (Cert.Sage.affine (F := Ideal) (Cert.Sage.aggregate (F := Ideal) (m ((c : Thread nD τ).loc main_arg0)) (m ((c : Thread nD τ).loc main_arg1)) (m ((c : Thread nD τ).loc main_arg2)) (Cert.Sage.degScale (F := Ideal) (m ((c : Thread nD τ).loc main_arg2)))) (m ((c : Thread nD τ).loc main_arg3)) (m ((c : Thread nD τ).loc main_arg4)))) (m ((c : Thread nD τ).loc main_arg1)) (m ((c : Thread nD τ).loc main_arg2)) (Cert.Sage.degScale (F := Ideal) (m ((c : Thread nD τ).loc main_arg2)))) (m ((c : Thread nD τ).loc main_arg5)) (m ((c : Thread nD τ).loc main_arg6)))) (m ((c : Thread nD τ).loc main_arg1)) (m ((c : Thread nD τ).loc main_arg2)) (Cert.Sage.degScale (F := Ideal) (m ((c : Thread nD τ).loc main_arg2)))) := by
    refine (Stretch.third_agg (W4 m ρ c)).trans ?_
    rw [o4, k4_arg1, k4_arg2, k4_v8]
  have k5_arg7 : W5 m ρ c (Proc.devRef .tc main_arg7) = (m ((c : Thread nD τ).loc main_arg7)) := (Stretch.third_keep_arg7 (W4 m ρ c)).trans k4_arg7
  have k5_arg8 : W5 m ρ c (Proc.devRef .tc main_arg8) = (m ((c : Thread nD τ).loc main_arg8)) := (Stretch.third_keep_arg8 (W4 m ρ c)).trans k4_arg8
  refine ((W6_arr m ρ c 3).trans (Layer2.output_eq (V5 m ρ) c)).trans ?_
  show Cert.Sage.affine (F := Ideal) (W5 m ρ c (Proc.devRef .tc main_v49)) (W5 m ρ c (Proc.devRef .tc main_arg7)) (W5 m ρ c (Proc.devRef .tc main_arg8)) = _
  rw [g5, k5_arg7, k5_arg8]
  rfl

end Cert.KernelIdeal.Result

end
-- ==== Proof.RefSide.lean ====
/-
  The reference program's result as the three-layer function of its arguments.

  The reference is a straight line of host operations: the scale column from the destinations, then three times
  the aggregation along the edges, the product with the weights and the bias, with the clamp at zero after the
  first two. Its result buffer ends holding these operations composed, which is the three-layer function spelt
  with the same operations.
-/
import proofs.«111350_j19353122635776_1_alg».proof.Proof.Gen.ReferenceIdeal.Run
import proofs.«111350_j19353122635776_1_alg».proof.Proof.Spec

noncomputable section

namespace Cert.ReferenceIdeal.RefValue

open Cert.ReferenceIdeal Cert.ReferenceIdeal.Gen Cert.ReferenceIdeal.Value Idealize.ShloMosaic Idealize.ShloMosaic.TcCoe Idealize.SL.Sem

set_option maxRecDepth 8192 in
/-- The composed operations of the reference's result are the three layers of the arguments. -/
theorem result_eq (m : (ℓ : Loc nD τ sig) → Buf (Elt Ideal) ℓ) (c : Dev nD) :
    res_main_v61 (F := Ideal) m c
      = Cert.Sage.sage (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold res_main_v61 Cert.Sage.sage Cert.Sage.affine Cert.Sage.clamp Cert.Sage.aggregate Cert.Sage.degScale
  rfl

end Cert.ReferenceIdeal.RefValue

end
-- ==== Proof.lean ====
/-
  A three-layer graph convolution on 50000 nodes and 800000 edges, with its dense steps tiled, against the same
  network written with whole-array operations.

  Both programs compute, from the destinations, the scale 1 / (deg + 1) of every node, and then three times: gather
  the rows of the current features along the edges' sources, sum them into the edges' destinations, add the
  features, scale each row, multiply by a 64 x 64 weight matrix and add a bias row; after the first two layers
  negative entries are replaced by zero. The two differ only in the dense part of a layer. The reference applies one
  matrix product to all 50000 rows, adds the bias and clamps as three whole-array operations. The tiled program
  runs ten steps per layer, each on 5000 rows: it rounds the rows and the weights to a shorter float format,
  multiplies them into a zero accumulator, adds the bias and clamps, and writes its 5000 rows back. On the extended
  reals the rounding is the identity and a product into zero is the plain sum over the 64 inner indices, so entry
  (p, q) of a step's block is entry (5000 t + p, q) of the reference's product plus bias, clamped alike; the ten
  blocks tile the rows, so each layer's output array is the same function of the arrays the layer found. The host
  lines between the layers are the same operations in both programs, so the results agree whatever the inputs
  hold: no finiteness is used. The rewriting that produced the idealized tiled program changed no operation.
-/
import proofs.«111350_j19353122635776_1_alg».proof.Defs
import proofs.«111350_j19353122635776_1_alg».proof.Proof.Gen.Kernel
import proofs.«111350_j19353122635776_1_alg».proof.Proof.Gen.Kernel.Frame
import proofs.«111350_j19353122635776_1_alg».proof.Proof.Gen.KernelIdeal
import proofs.«111350_j19353122635776_1_alg».proof.Proof.Gen.KernelIdeal.Frame
import proofs.«111350_j19353122635776_1_alg».proof.Proof.Gen.ReferenceIdeal
import proofs.«111350_j19353122635776_1_alg».proof.Proof.Gen.ReferenceIdeal.Run
import proofs.«111350_j19353122635776_1_alg».proof.Proof.Gen.Pre_finite_inputs
import proofs.«111350_j19353122635776_1_alg».proof.Proof.KernelRun
import proofs.«111350_j19353122635776_1_alg».proof.Proof.KernelValue
import proofs.«111350_j19353122635776_1_alg».proof.Proof.RefSide
import Idealize.ShloMosaic.Adequacy
import Idealize.ShloMosaic.Init

noncomputable section

namespace Cert.Proof

open Idealize.ShloMosaic Idealize.ShloMosaic.TcCoe Idealize.SL.Sem

/-- The tiled program as printed runs and leaves its arguments alone. -/
theorem frame_k : Cert.frame_Kernel := fun m ρ _ => Cert.Kernel.Gen.frame m ρ

/-- So does it read on the extended reals. -/
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the nine arguments both programs end with the three-layer function of those
    arguments in their result arrays. -/
theorem algebraic : Cert.algebraic_KernelIdeal_ReferenceIdeal := by
  intro m ρ m' ρ' _ hagree
  refine ⟨fun c => Cert.Sage.sage (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Result.result_eq m ρ c), (h c).2⟩)
      (Cert.KernelIdeal.RunOut.run_out (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.RefValue.result_eq m' c, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
